-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S1024x100000 : Shape := ⟨2, ![1024, 100000]⟩
abbrev S4096x16 : Shape := ⟨2, ![4096, 16]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S4096x1 : Shape := ⟨2, ![4096, 1]⟩
abbrev S1024x18 : Shape := ⟨2, ![1024, 18]⟩
abbrev S4096x18 : Shape := ⟨2, ![4096, 18]⟩

abbrev nBuf : Space → Nat
  | .hbm => 3
  | .vmem => 5
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x100000, .f32⟩
  | .local _ .vmem, ⟨0, _⟩ => ⟨S1024x16, .f32⟩
  | .local _ .vmem, ⟨1, _⟩ => ⟨S4096x16, .f32⟩
  | .local _ .vmem, ⟨2, _⟩ => ⟨S4096x16, .f32⟩
  | .local _ .vmem, ⟨3, _⟩ => ⟨S1024x4096, .f32⟩
  | .local _ .vmem, ⟨4, _⟩ => ⟨S1024x4096, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  inb_S4096x16_S4096x16_0_0 : ∀ a, (![0, 0] : Fin 2 → Nat) a + S4096x16.size a ≤ S4096x16.size a
  h_S4096x16 : 0 < S4096x16.numel
  reduces_S1024x16_S1024 : S1024x16.Reduces [1] S1024
  shapeCasts_S1024_S1024x1 : S1024.ShapeCasts S1024x1
  reduces_S4096x16_S4096 : S4096x16.Reduces [1] S4096
  shapeCasts_S4096_S4096x1 : S4096.ShapeCasts S4096x1
  concatenates_S1024x16_S1024x1_S1024x1_S1024x18_d1 : Shape.Concatenates [S1024x16, S1024x1, S1024x1] S1024x18 1
  concatenates_S4096x16_S4096x1_S4096x1_S4096x18_d1 : Shape.Concatenates [S4096x16, S4096x1, S4096x1] S4096x18 1
  inb_S1024x4096_S1024x4096_0_0 : ∀ a, (![0, 0] : Fin 2 → Nat) a + S1024x4096.size a ≤ S1024x4096.size a
  h_S1024x4096 : 0 < S1024x4096.numel
  dot_S1024x18_S4096x18_S1024x4096_1_1_0_0_n_n_wf : DotDims.WF S1024x18 S4096x18 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x16.size a < S100000x16.size a
  hwx0_1 : ∀ i : grid0.Coords, EltTy.bits .f32 = 32 ∨ (Rect.unit (s := S100000x16) (fun a => cc0_transform_1 i a * S4096x16.size a) (fun a => (Pipeline.Clip.of (cc0_transform_1 i a) (S4096x16.size a) (S100000x16.size a)).extent (S4096x16.size a)) fun a => Pipeline.Clip.inb (Pipeline.Clip.ok_of (hstart0_1 i a))).WholeWords (EltTy.packing .f32)
  hwxs0_1 : ∀ i : grid0.Coords, EltTy.bits .f32 = 32 ∨ (Rect.unit (s := S4096x16) (fun _ => 0) (fun a => (Pipeline.Clip.of (cc0_transform_1 i a) (S4096x16.size a) (S100000x16.size a)).extent (S4096x16.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x4096.size a < S1024x100000.size a
  hwx0_2 : ∀ i : grid0.Coords, EltTy.bits .f32 = 32 ∨ (Rect.unit (s := S1024x100000) (fun a => cc0_transform_2 i a * S1024x4096.size a) (fun a => (Pipeline.Clip.of (cc0_transform_2 i a) (S1024x4096.size a) (S1024x100000.size a)).extent (S1024x4096.size a)) fun a => Pipeline.Clip.inb (Pipeline.Clip.ok_of (hstart0_2 i a))).WholeWords (EltTy.packing .f32)
  hwxs0_2 : ∀ i : grid0.Coords, EltTy.bits .f32 = 32 ∨ (Rect.unit (s := S1024x4096) (fun _ => 0) (fun a => (Pipeline.Clip.of (cc0_transform_2 i a) (S1024x4096.size a) (S1024x100000.size a)).extent (S1024x4096.size a)) fun a => (Nat.zero_add _).trans_le (Pipeline.Clip.extent_le (Pipeline.Clip.ok_of (hstart0_2 i a)))).WholeWords (EltTy.packing .f32)

variable [Facts₀]

def dot_S1024x18_S4096x18_S1024x4096_1_1_0_0_n_n : DotDims S1024x18 S4096x18 S1024x4096 where
  lhsContracting := [1]
  rhsContracting := [1]
  lhsNonContracting := [0]
  rhsNonContracting := [0]
  lhsBatch := []
  rhsBatch := []
  wf := dot_S1024x18_S4096x18_S1024x4096_1_1_0_0_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x16.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1024x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16 : Shape := ⟨2, ![1024, 16]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S16x100000 : Shape := ⟨2, ![16, 100000]⟩
abbrev S1024x100000x1 : Shape := ⟨3, ![1024, 100000, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x16, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S16x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S_, .f32⟩
  | .hbm, ⟨24, _⟩ => ⟨S1024, .f32⟩
  | .hbm, ⟨25, _⟩ => ⟨S1024x100000, .f32⟩
  | .hbm, ⟨26, _⟩ => ⟨S1024x100000x1, .f32⟩
  | .hbm, ⟨27, _⟩ => ⟨S_, .f32⟩
  | .hbm, ⟨28, _⟩ => ⟨S1024x100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S1024x16_S1024_d1 : S1024x16.ReducesTo [1] S1024
  h_S_ : 0 < S_.numel
  bcast_S1024_S1024x1_0 : S1024.BroadcastsInDim S1024x1 (![0] : Fin 1 → Fin S1024x1.rank)
  reducesTo_S100000x16_S100000_d1 : S100000x16.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x16_S16x100000_1_0 : S100000x16.Transposes [1, 0] S16x100000
  bcast_S_S1024x100000 : S_.BroadcastsInDim S1024x100000 (![] : Fin 0 → Fin S1024x100000.rank)
  reducesTo_S1024x100000_S1024_d1 : S1024x100000.ReducesTo [1] S1024
  shapeCasts_S1024x100000_S1024x100000x1 : S1024x100000.ShapeCasts S1024x100000x1
  reducesTo_S1024x100000x1_S1024x100000_d2 : S1024x100000x1.ReducesTo [2] S1024x100000
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.BodyBits.lean ====
/-
  The kernel body of `_lvq_block` run once, on any three whole staging buffers.

  The body reads the whole batch block `x` (1024 × 16) and the whole prototype block `p` (4096 × 16), reads the
  result's buffer without using what it read, and overwrites the whole 1024 × 4096 result buffer with one value
  computed from the two blocks (the skeleton's payload).  So after the body the two input buffers hold what they
  held, and the result's buffer holds that payload of the two: stated for an arbitrary float instance, since
  nothing here looks inside the arithmetic.
-/
import proofs.«101006_g41042707480709_retrytranche2_1909_5_alg».proof.Proof.Gen.Kernel.Frame
import proofs.«101006_g41042707480709_retrytranche2_1909_5_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body touches: each is its whole buffer. -/
abbrev rx : Rect S1024x16 := Rect.unit (s := S1024x16) ![0, 0] S1024x16.size inb_S1024x16_S1024x16_0_0
abbrev rp : Rect S4096x16 := Rect.unit (s := S4096x16) ![0, 0] S4096x16.size inb_S4096x16_S4096x16_0_0
abbrev ro : Rect S1024x4096 := Rect.unit (s := S1024x4096) ![0, 0] S1024x4096.size inb_S1024x4096_S1024x4096_0_0

/-- What the result's buffer holds after the body, from what the two input buffers hold: the one store, of the
    payload of the two whole loads. -/
def out (x0 : Vec F S1024x16 .f32) (x1 : Vec F S4096x16 .f32) : Vec F S1024x4096 .f32 :=
  View.canon [⟨ro, k0_pay1 (View.ld x0 rx) (View.ld x1 rp)⟩]

/-- The one store covers the result's buffer. -/
theorem cover (p0 : Vec F S1024x4096 .f32) (y : S1024x4096.Idx) :
    ∃ pc ∈ ([⟨ro, p0⟩] : List (View.Piece (Elt F) S1024x4096 .f32)), y ∈ pc.1.set :=
  View.cover_of_tiled [⟨ro, p0⟩] S1024x4096.size (by rfl) y

set_option maxHeartbeats 1000000 in
/-- The body on whole staging buffers — the inputs' at contents `x0`, `x1`, the result's at anything — runs to the
    continuation with the inputs' as they were and the result's at `out x0 x1`. -/
theorem sound_kernel (c : Dev nD) (E : Set ℕ) (i : grid0.Coords)
    (arg1 : Memref sig .tc .vmem S1024x16 .f32) (harg1 : arg1.IsWhole)
    (arg2 : Memref sig .tc .vmem S4096x16 .f32) (harg2 : arg2.IsWhole)
    (arg3 : Memref sig .tc .vmem S1024x4096 .f32) (harg3 : arg3.IsWhole)
    (x0 : Vec F S1024x16 .f32) (x1 : Vec F S4096x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__lvq_block i arg1 harg1 arg2 harg2 arg3 harg3) K := by
  simp only [cc0__lvq_block_eq_skeleton]; unfold cc0__lvq_block_skel
  unfold owns
  iintro ⟨⟨%f0, %hf0, H0⟩, ⟨%f1, %hf1, H1⟩, ⟨%d2, %f2, %hf2, H2⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.Kernel.Body

end
-- ==== Proof.FrameBits.lean ====
/-
  The frame of the word-level program: it runs to the end, nothing faults, and the two argument arrays end as
  they began.

  The grid has 25 points.  At point `t` the pipeline hands the body the whole batch `x` (fetched once, its block
  index never moves), block `t` of the prototypes (4096 rows; the last block reaches past row 100000, so only
  its first 1696 rows come from the array and the rest of the buffer holds words nothing names), and a result
  buffer whose contents nobody has described.  The frame says nothing about the result array, so what the body
  leaves in the result's buffer is left unnamed here; of the two input buffers it is enough that the body
  leaves them as it found them.
-/
import proofs.«101006_g41042707480709_retrytranche2_1909_5_alg».proof.Proof.BodyBits

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose buffer is left unnamed: the result's. -/
def forgets : Fin 3 → Bool := fun w => w.val == 2

/-- The proof data on core `c`: the arrays as the region finds them; after the body at point `t` the batch
    buffer holds the batch, the prototype buffer holds block `t` on the rows inside the array (past them a zero
    word that nothing reads), the result's buffer is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by
  dsimp only [dats]

/-- The batch buffer holds the batch at every point, fetched there or not. -/
theorem before0_0 (c : Dev nD) (t : Fin cfg0.N) (d) : (dats m 0 c).before 0 t d = iblk m c 0 t :=
  before0_0_of m (dats m 0 c) (A_eq m c 0) (after0_0 m c) t d

/-- The prototype buffer was fetched at this very point: block `t` on the rows inside the array, `d` past them. -/
theorem before0_1 (c : Dev nD) (t : Fin cfg0.N) (d) :
    (dats m 0 c).before 1 t d = win0_1.fill (grid0.coords t) d (iblk m c 1 t) := by
  unfold Dat.before; rw [if_pos (fetch0_1 t)]; rfl

/-- On the rows inside the array the prototype buffer's stated contents are block `t`. -/
theorem cut_after0_1 (c : Dev nD) (t : Fin cfg0.N) :
    (cfg0.win 1).cut (cfg0.grid.coords t) ((dats m 0 c).after 1 t) = iblk m c 1 t := by
  rw [after0_1]; exact win0_1.cut_fill _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the batch buffer as stated, the prototype buffer as stated on the rows inside the array,
    the result's buffer at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, cut_after0_1]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; iexact H1
  · iexists _; iexact H2

/-- The pipeline's body obligation at every point, the result's window unnamed. -/
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution of the program terminates without a fault, the input arrays unchanged and
    nothing stated of the result. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: both argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c))⟩)
    (run_main m ρ)

end Cert.Kernel.FrameRun

end
-- ==== Proof.BodyIdeal.lean ====
/-
  The kernel body of `_lvq_block` run once, on any three whole staging buffers.

  The body reads the whole batch block `x` (1024 × 16) and the whole prototype block `p` (4096 × 16), reads the
  result's buffer without using what it read, and overwrites the whole 1024 × 4096 result buffer with one value
  computed from the two blocks (the skeleton's payload).  So after the body the two input buffers hold what they
  held, and the result's buffer holds that payload of the two: stated for an arbitrary float instance, since
  nothing here looks inside the arithmetic.
-/
import proofs.«101006_g41042707480709_retrytranche2_1909_5_alg».proof.Proof.Gen.KernelIdeal.Frame
import proofs.«101006_g41042707480709_retrytranche2_1909_5_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rectangles the body touches: each is its whole buffer. -/
abbrev rx : Rect S1024x16 := Rect.unit (s := S1024x16) ![0, 0] S1024x16.size inb_S1024x16_S1024x16_0_0
abbrev rp : Rect S4096x16 := Rect.unit (s := S4096x16) ![0, 0] S4096x16.size inb_S4096x16_S4096x16_0_0
abbrev ro : Rect S1024x4096 := Rect.unit (s := S1024x4096) ![0, 0] S1024x4096.size inb_S1024x4096_S1024x4096_0_0

/-- What the result's buffer holds after the body, from what the two input buffers hold: the one store, of the
    payload of the two whole loads. -/
def out (x0 : Vec F S1024x16 .f32) (x1 : Vec F S4096x16 .f32) : Vec F S1024x4096 .f32 :=
  View.canon [⟨ro, k0_pay1 (View.ld x0 rx) (View.ld x1 rp)⟩]

/-- The one store covers the result's buffer. -/
theorem cover (p0 : Vec F S1024x4096 .f32) (y : S1024x4096.Idx) :
    ∃ pc ∈ ([⟨ro, p0⟩] : List (View.Piece (Elt F) S1024x4096 .f32)), y ∈ pc.1.set :=
  View.cover_of_tiled [⟨ro, p0⟩] S1024x4096.size (by rfl) y

set_option maxHeartbeats 1000000 in
/-- The body on whole staging buffers — the inputs' at contents `x0`, `x1`, the result's at anything — runs to the
    continuation with the inputs' as they were and the result's at `out x0 x1`. -/
theorem sound_kernel (c : Dev nD) (E : Set ℕ) (i : grid0.Coords)
    (arg1 : Memref sig .tc .vmem S1024x16 .f32) (harg1 : arg1.IsWhole)
    (arg2 : Memref sig .tc .vmem S4096x16 .f32) (harg2 : arg2.IsWhole)
    (arg3 : Memref sig .tc .vmem S1024x4096 .f32) (harg3 : arg3.IsWhole)
    (x0 : Vec F S1024x16 .f32) (x1 : Vec F S4096x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__lvq_block i arg1 harg1 arg2 harg2 arg3 harg3) K := by
  simp only [cc0__lvq_block_eq_skeleton]; unfold cc0__lvq_block_skel
  unfold owns
  iintro ⟨⟨%f0, %hf0, H0⟩, ⟨%f1, %hf1, H1⟩, ⟨%d2, %f2, %hf2, H2⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

end Cert.KernelIdeal.Body

end
-- ==== Proof.Consts.lean ====
/-
  The float words this kernel and its reference spell, as the real numbers they denote: 2, -2, 1, and the clamp
  9.99999996e-13, of which only that it is a positive real is used.
-/
import Idealize.ShloMosaic.PureOps.Ideal
import Idealize.ShloMosaic.PureOps.Ideal.Laws

noncomputable section

namespace Cert.Lvq.Consts

open Idealize.ShloMosaic

theorem two : Ideal.ofBits .f32 0x40000000#32 = ((2 : ℝ) : EReal) := by
  simp [Ideal.ofBits, Ideal.ieee, -EReal.coe_mul]; norm_num

theorem neg_two : Ideal.ofBits .f32 0xC0000000#32 = ((-2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-- The clamp word denotes a positive real. -/
theorem eps_pos : ∃ e : ℝ, 0 < e ∧ Ideal.ofBits .f32 0x2B8CBCCC#32 = (e : EReal) := by
  simp [Ideal.ofBits, Ideal.ieee, -EReal.coe_mul]

end Cert.Lvq.Consts

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.Dist.lean ====
/-
  One entry of the result, as a function of one row `xr` of the batch and one row `pr` of the prototypes
  (sixteen numbers each), in the two forms the two programs compute it, and the law that joins them.

  The reference forms |x|² + |p|² − 2·(x·p), clamps it below by the word for 1e-12, takes the square root and
  negates.  The kernel forms ONE product of two rows of eighteen numbers,
      (−2·x₀, …, −2·x₁₅, |x|², 1) · (p₀, …, p₁₅, 1, |p|²),
  clamps it by the same word to `M`, and returns 0 − M·(1/√M).  For real rows the two agree: the eighteen-term
  product is |x|² + |p|² − 2·(x·p) by distributing −2 over the sum (which needs the entries to be real numbers,
  not infinities), the clamp makes both arguments a real M > 0, and M/√M = √M there.
-/
import Idealize.ShloMosaic.PureOps.Ideal
import Idealize.ShloMosaic.PureOps.Ideal.Laws
import proofs.«101006_g41042707480709_retrytranche2_1909_5_alg».proof.Proof.Consts
import proofs.«101006_g41042707480709_retrytranche2_1909_5_alg».proof.Proof.LibERealSum

noncomputable section

namespace Cert.Lvq

open Idealize.ShloMosaic Cert.LibERealSum

/-- The clamp 9.99999996e-13, as both programs spell it. -/
abbrev epsE : EReal := Ideal.ofBits .f32 0x2B8CBCCC#32

/-- The reference's entry. -/
def refEntry (xr pr : Fin 16 → EReal) : EReal :=
  -(Ideal.sqrt (max
      (((Ideal.ofBits .f32 0x00000000#32 + ∑ k, xr k * xr k) + (Ideal.ofBits .f32 0x00000000#32 + ∑ k, pr k * pr k))
        - Ideal.ofBits .f32 0x40000000#32 * ∑ k, xr k * pr k)
      epsE))

/-- The kernel's left row of eighteen: −2·x, then |x|², then 1. -/
def xAug (xr : Fin 16 → EReal) (k : Fin 18) : EReal :=
  if h : k.val < 16 then Ideal.ofBits .f32 0xC0000000#32 * xr ⟨k.val, h⟩
  else if k.val = 16 then ∑ j, xr j * xr j else Ideal.ofBits .f32 0x3F800000#32

/-- The kernel's right row of eighteen: p, then 1, then |p|². -/
def pAug (pr : Fin 16 → EReal) (k : Fin 18) : EReal :=
  if h : k.val < 16 then pr ⟨k.val, h⟩
  else if k.val = 16 then Ideal.ofBits .f32 0x3F800000#32 else ∑ j, pr j * pr j

/-- The kernel's entry. -/
def kerEntry (xr pr : Fin 16 → EReal) : EReal :=
  Ideal.ofBits .f32 0x00000000#32
    - (max (∑ k : Fin 18, xAug xr k * pAug pr k) epsE * Ideal.rsqrt (max (∑ k : Fin 18, xAug xr k * pAug pr k) epsE))

/-- The eighteen-term product, split into its sixteen cross terms and its two tail terms. -/
theorem sum_aug (xr pr : Fin 16 → EReal) :
    ∑ k : Fin 18, xAug xr k * pAug pr k
      = (∑ k : Fin 16, (Ideal.ofBits .f32 0xC0000000#32 * xr k) * pr k
          + (∑ j, xr j * xr j) * Ideal.ofBits .f32 0x3F800000#32)
        + Ideal.ofBits .f32 0x3F800000#32 * ∑ j, pr j * pr j := by
  have h1 : ∀ k : Fin 16, xAug xr (Fin.castSucc (Fin.castSucc k)) * pAug pr (Fin.castSucc (Fin.castSucc k))
      = (Ideal.ofBits .f32 0xC0000000#32 * xr k) * pr k := fun k => by
    have hk : (Fin.castSucc (Fin.castSucc k) : Fin 18).val < 16 := k.isLt
    unfold xAug pAug
    rw [dif_pos hk, dif_pos hk]
    rfl
  have h2 : xAug xr (Fin.castSucc (Fin.last 16)) * pAug pr (Fin.castSucc (Fin.last 16))
      = (∑ j, xr j * xr j) * Ideal.ofBits .f32 0x3F800000#32 := by
    have h16 : ¬ (Fin.castSucc (Fin.last 16) : Fin 18).val < 16 := by decide
    have e16 : (Fin.castSucc (Fin.last 16) : Fin 18).val = 16 := by decide
    unfold xAug pAug
    rw [dif_neg h16, dif_neg h16, if_pos e16, if_pos e16]
  have h3 : xAug xr (Fin.last 17) * pAug pr (Fin.last 17)
      = Ideal.ofBits .f32 0x3F800000#32 * ∑ j, pr j * pr j := by
    have h17 : ¬ (Fin.last 17 : Fin 18).val < 16 := by decide
    have e17 : ¬ (Fin.last 17 : Fin 18).val = 16 := by decide
    unfold xAug pAug
    rw [dif_neg h17, dif_neg h17, if_neg e17, if_neg e17]
  rw [Fin.sum_univ_castSucc, Fin.sum_univ_castSucc, h2, h3]
  simp only [h1]

/-- For a real M > 0: M·(1/√M) = √M, so 0 − M·rsqrt M = −sqrt M. -/
theorem neg_sqrt_of_pos (r : ℝ) (hr : 0 < r) :
    Ideal.ofBits .f32 0x00000000#32 - ((r : EReal) * Ideal.rsqrt (r : EReal)) = -(Ideal.sqrt (r : EReal)) := by
  have hn : ¬ r < 0 := not_lt.mpr hr.le
  have h0 : ¬ r = 0 := ne_of_gt hr
  have hs : 0 < Real.sqrt r := Real.sqrt_pos.mpr hr
  have e : r * (Real.sqrt r)⁻¹ = Real.sqrt r := by
    have := Real.mul_self_sqrt hr.le
    field_simp
    nlinarith [this]
  rw [Ideal.ofBits_zero_f32]
  show (0 : EReal) - ((r : EReal) * (if r < 0 then ⊥ else if r = 0 then ⊤ else (((Real.sqrt r)⁻¹ : ℝ) : EReal)))
      = -(if r < 0 then ⊥ else ((Real.sqrt r : ℝ) : EReal))
  rw [if_neg hn, if_neg h0, if_neg hn, ← EReal.coe_mul, e, zero_sub]

/-- THE LAW: on real rows the kernel's entry is the reference's. -/
theorem kerEntry_eq_refEntry (xr pr : Fin 16 → EReal) (hx : ∀ k, IsReal (xr k)) (hp : ∀ k, IsReal (pr k)) :
    kerEntry xr pr = refEntry xr pr := by
  obtain ⟨a, ha⟩ : ∃ a : Fin 16 → ℝ, ∀ k, xr k = (a k : EReal) := ⟨fun k => (hx k).choose, fun k => (hx k).choose_spec⟩
  obtain ⟨b, hb⟩ : ∃ b : Fin 16 → ℝ, ∀ k, pr k = (b k : EReal) := ⟨fun k => (hp k).choose, fun k => (hp k).choose_spec⟩
  obtain ⟨e, he, hee⟩ := Consts.eps_pos
  -- both squared distances are one real number
  have hker : ∑ k : Fin 18, xAug xr k * pAug pr k
      = (((∑ k, a k * a k) + (∑ k, b k * b k) - 2 * ∑ k, a k * b k : ℝ) : EReal) := by
    have hreal : (∑ k, -2 * a k * b k) + (∑ k, a k * a k) * 1 + 1 * ∑ k, b k * b k
        = (∑ k, a k * a k) + (∑ k, b k * b k) - 2 * ∑ k, a k * b k := by
      have h2 : ∑ k, -2 * a k * b k = -2 * ∑ k, a k * b k := by
        rw [Finset.mul_sum]; exact Finset.sum_congr rfl fun k _ => by ring
      rw [h2]; ring
    rw [sum_aug, Consts.neg_two, Consts.one]
    simp only [ha, hb, ← EReal.coe_mul, ← coe_sum, ← EReal.coe_add]
    rw [hreal]
  have href : ((Ideal.ofBits .f32 0x00000000#32 + ∑ k, xr k * xr k) + (Ideal.ofBits .f32 0x00000000#32 + ∑ k, pr k * pr k))
        - Ideal.ofBits .f32 0x40000000#32 * ∑ k, xr k * pr k
      = (((∑ k, a k * a k) + (∑ k, b k * b k) - 2 * ∑ k, a k * b k : ℝ) : EReal) := by
    rw [Ideal.ofBits_zero_f32, Consts.two, zero_add, zero_add]
    simp only [ha, hb, ← EReal.coe_mul, ← coe_sum, ← EReal.coe_add, ← EReal.coe_sub]
  unfold kerEntry refEntry
  rw [hker, href]
  unfold epsE
  rw [hee, ← EReal.coe_strictMono.monotone.map_max]
  exact neg_sqrt_of_pos _ (lt_of_lt_of_le he (le_max_right _ _))

end Cert.Lvq

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«101006_g41042707480709_retrytranche2_1909_5_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.Payload.lean ====
/-
  The kernel's payload at an index: the value it stores at row `p`, column `q` of the result buffer is the
  kernel's entry formula of row `p` of the batch buffer and row `q` of the prototype buffer — and of no other
  row of either.

  The payload lays −2·x, the row sums of x², and ones side by side into a 1024 × 18 array, lays p, ones, and the
  row sums of p² side by side into a 4096 × 18 array, contracts the two over their eighteen columns into a zero
  accumulator, clamps, multiplies by the reciprocal square root and subtracts from zero.
-/
import proofs.«101006_g41042707480709_retrytranche2_1909_5_alg».proof.Proof.Gen.KernelIdeal.Skeleton
import proofs.«101006_g41042707480709_retrytranche2_1909_5_alg».proof.Proof.Dist
import proofs.«101006_g41042707480709_retrytranche2_1909_5_alg».proof.Proof.LibRowReduce
import Idealize.ShloMosaic.Lib.ValueIdx
import Idealize.ShloMosaic.Lib.Pipeline.Value
import Idealize.ShloMosaic.PureOps.Ideal.Laws

set_option maxRecDepth 16384

noncomputable section

namespace Cert.KernelIdeal.Payload

open Cert.KernelIdeal Cert.KernelIdeal.Gen Cert.Lvq
open Idealize.ShloMosaic Idealize.ShloMosaic.ValueIdx

/-- The three pieces of the left operand: −2·x, |x|² per row as a column, a column of ones. -/
def xScaled (v0 : FVec Ideal S1024x16 .f32) : FVec Ideal S1024x16 .f32 :=
  mulf (broadcast S1024x16 (Scalar.ofBits (F := Ideal) .f32 0xC0000000#32)) v0
def xSq (v0 : FVec Ideal S1024x16 .f32) : FVec Ideal S1024x1 .f32 :=
  shapeCast S1024x1 (multiReduction .add [1] S1024 (mulf v0 v0) 0x00000000#32 reduces_S1024x16_S1024 (.inl rfl) rfl) shapeCasts_S1024_S1024x1
def xOnes : FVec Ideal S1024x1 .f32 := broadcast S1024x1 (Scalar.ofBits (F := Ideal) .f32 0x3F800000#32)

/-- The left operand of the contraction: −2·x, |x|² per row, ones. -/
def lhs18 (v0 : FVec Ideal S1024x16 .f32) : FVec Ideal S1024x18 .f32 :=
  concatenate S1024x18 1 [⟨S1024x16, xScaled v0⟩, ⟨S1024x1, xSq v0⟩, ⟨S1024x1, xOnes⟩]
    concatenates_S1024x16_S1024x1_S1024x1_S1024x18_d1

/-- The pieces of the right operand: a column of ones, |p|² per row as a column. -/
def pOnes : FVec Ideal S4096x1 .f32 := broadcast S4096x1 (Scalar.ofBits (F := Ideal) .f32 0x3F800000#32)
def pSq (v1 : FVec Ideal S4096x16 .f32) : FVec Ideal S4096x1 .f32 :=
  shapeCast S4096x1 (multiReduction .add [1] S4096 (mulf v1 v1) 0x00000000#32 reduces_S4096x16_S4096 (.inl rfl) rfl) shapeCasts_S4096_S4096x1

/-- The right operand: p, ones, |p|² per row. -/
def rhs18 (v1 : FVec Ideal S4096x16 .f32) : FVec Ideal S4096x18 .f32 :=
  concatenate S4096x18 1 [⟨S4096x16, v1⟩, ⟨S4096x1, pOnes⟩, ⟨S4096x1, pSq v1⟩]
    concatenates_S4096x16_S4096x1_S4096x1_S4096x18_d1

/-- Row `p` of the left operand is the augmented row of row `p` of x. -/
theorem lhs18_apply (v0 : FVec Ideal S1024x16 .f32) (p : Fin 1024) (k : Fin 18) :
    lhs18 v0 (ix2 p k) = xAug (fun j => v0 (ix2 p j)) k := by
  unfold lhs18 xAug
  by_cases h : k.val < 16
  · rw [dif_pos h]
    refine (concatenate_apply_piece (t := S1024x18) (1 : Fin 2) [⟨S1024x16, xScaled v0⟩, ⟨S1024x1, xSq v0⟩, ⟨S1024x1, xOnes⟩] concatenates_S1024x16_S1024x1_S1024x1_S1024x18_d1 (ix2 p k)
      0 (by show (0 : Nat) < 3; decide) S1024x16 _ rfl rfl 0 rfl (ix2 p ⟨k.val, h⟩) ?_ ?_).trans ?_
    · intro b hb; match b with
      | ⟨0, _⟩ => rfl
      | ⟨1, _⟩ => exact absurd rfl hb
    · show 0 + k.val = k.val; omega
    · rfl
  · rw [dif_neg h]
    by_cases h16 : k.val = 16
    · rw [if_pos h16]
      refine (concatenate_apply_piece (t := S1024x18) (1 : Fin 2) [⟨S1024x16, xScaled v0⟩, ⟨S1024x1, xSq v0⟩, ⟨S1024x1, xOnes⟩] concatenates_S1024x16_S1024x1_S1024x1_S1024x18_d1 (ix2 p k)
        1 (by show (1 : Nat) < 3; decide) S1024x1 _ rfl rfl 16 rfl (ix2 p (0 : Fin 1)) ?_ ?_).trans ?_
      · intro b hb; match b with
        | ⟨0, _⟩ => rfl
        | ⟨1, _⟩ => exact absurd rfl hb
      · show 16 + 0 = k.val; omega
      · refine (Cert.LibOuterSum.col_of_vec_apply _ shapeCasts_S1024_S1024x1 p 0).trans ?_
        exact Cert.LibRowReduce.sum_row2 (mulf v0 v0) reduces_S1024x16_S1024 (.inl rfl) rfl p
    · rw [if_neg h16]
      have h17 : k.val = 17 := by have := k.isLt; omega
      refine (concatenate_apply_piece (t := S1024x18) (1 : Fin 2) [⟨S1024x16, xScaled v0⟩, ⟨S1024x1, xSq v0⟩, ⟨S1024x1, xOnes⟩] concatenates_S1024x16_S1024x1_S1024x1_S1024x18_d1 (ix2 p k)
        2 (by show (2 : Nat) < 3; decide) S1024x1 _ rfl rfl 17 rfl (ix2 p (0 : Fin 1)) ?_ ?_).trans ?_
      · intro b hb; match b with
        | ⟨0, _⟩ => rfl
        | ⟨1, _⟩ => exact absurd rfl hb
      · show 17 + 0 = k.val; omega
      · rfl

/-- Row `q` of the right operand is the augmented row of row `q` of p. -/
theorem rhs18_apply (v1 : FVec Ideal S4096x16 .f32) (q : Fin 4096) (k : Fin 18) :
    rhs18 v1 (ix2 q k) = pAug (fun j => v1 (ix2 q j)) k := by
  unfold rhs18 pAug
  by_cases h : k.val < 16
  · rw [dif_pos h]
    refine (concatenate_apply_piece (t := S4096x18) (1 : Fin 2) [⟨S4096x16, v1⟩, ⟨S4096x1, pOnes⟩, ⟨S4096x1, pSq v1⟩] concatenates_S4096x16_S4096x1_S4096x1_S4096x18_d1 (ix2 q k)
      0 (by show (0 : Nat) < 3; decide) S4096x16 _ rfl rfl 0 rfl (ix2 q ⟨k.val, h⟩) ?_ ?_).trans ?_
    · intro b hb; match b with
      | ⟨0, _⟩ => rfl
      | ⟨1, _⟩ => exact absurd rfl hb
    · show 0 + k.val = k.val; omega
    · rfl
  · rw [dif_neg h]
    by_cases h16 : k.val = 16
    · rw [if_pos h16]
      refine (concatenate_apply_piece (t := S4096x18) (1 : Fin 2) [⟨S4096x16, v1⟩, ⟨S4096x1, pOnes⟩, ⟨S4096x1, pSq v1⟩] concatenates_S4096x16_S4096x1_S4096x1_S4096x18_d1 (ix2 q k)
        1 (by show (1 : Nat) < 3; decide) S4096x1 _ rfl rfl 16 rfl (ix2 q (0 : Fin 1)) ?_ ?_).trans ?_
      · intro b hb; match b with
        | ⟨0, _⟩ => rfl
        | ⟨1, _⟩ => exact absurd rfl hb
      · show 16 + 0 = k.val; omega
      · rfl
    · rw [if_neg h16]
      have h17 : k.val = 17 := by have := k.isLt; omega
      refine (concatenate_apply_piece (t := S4096x18) (1 : Fin 2) [⟨S4096x16, v1⟩, ⟨S4096x1, pOnes⟩, ⟨S4096x1, pSq v1⟩] concatenates_S4096x16_S4096x1_S4096x1_S4096x18_d1 (ix2 q k)
        2 (by show (2 : Nat) < 3; decide) S4096x1 _ rfl rfl 17 rfl (ix2 q (0 : Fin 1)) ?_ ?_).trans ?_
      · intro b hb; match b with
        | ⟨0, _⟩ => rfl
        | ⟨1, _⟩ => exact absurd rfl hb
      · show 17 + 0 = k.val; omega
      · refine (Cert.LibOuterSum.col_of_vec_apply _ shapeCasts_S4096_S4096x1 q 0).trans ?_
        exact Cert.LibRowReduce.sum_row2 (mulf v1 v1) reduces_S4096x16_S4096 (.inl rfl) rfl q

/-- The contraction's dimension record: both operands contract their second axis. -/
abbrev D18 : DotDims S1024x18 S4096x18 S1024x4096 := dot_S1024x18_S4096x18_S1024x4096_1_1_0_0_n_n

/-- The kept coordinate of each operand's index is the output's: the row of the left, the row of the right. -/
theorem lhs_row (i : S1024x4096.Idx) (k : D18.contr.Idx) : (D18.lhsIdx i k 0).val = (i 0).val := by
  unfold DotDims.lhsIdx
  rw [dif_neg (show ¬(0 : Fin S1024x18.rank) ∈ D18.lhsBatch by decide), dif_pos (show (0 : Fin S1024x18.rank) ∈ D18.lhsNonContracting by decide)]
  rfl
theorem rhs_row (i : S1024x4096.Idx) (k : D18.contr.Idx) : (D18.rhsIdx i k 0).val = (i 1).val := by
  unfold DotDims.rhsIdx
  rw [dif_neg (show ¬(0 : Fin S4096x18.rank) ∈ D18.rhsBatch by decide), dif_pos (show (0 : Fin S4096x18.rank) ∈ D18.rhsNonContracting by decide)]
  rfl
/-- The contracted coordinate of each is the contraction index. -/
theorem lhs_col (i : S1024x4096.Idx) (k : D18.contr.Idx) : (D18.lhsIdx i k 1).val = (k ⟨0, by decide⟩).val :=
  D18.lhsIdx_val_of_single rfl i k
theorem rhs_col (i : S1024x4096.Idx) (k : D18.contr.Idx) : (D18.rhsIdx i k 1).val = (k ⟨0, by decide⟩).val :=
  D18.rhsIdx_val_of_single rfl i k

/-- The contraction of the two operands over their eighteen columns, into the zero accumulator, at (p, q). -/
theorem dot18_apply (L : FVec Ideal S1024x18 .f32) (R : FVec Ideal S4096x18 .f32) (p : Fin 1024) (q : Fin 4096) :
    matmul D18 none L R (constant S1024x4096 .f32 0x00000000#32) (ix2 p q)
      = ∑ k : Fin 18, L (ix2 p k) * R (ix2 q k) := by
  simp only [matmul]
  rw [Ideal.matmul_constant_zero_apply, ← Equiv.sum_comp (contrEquiv1 D18 18 rfl rfl).symm]
  refine Finset.sum_congr rfl fun k _ => ?_
  have hk := contrEquiv1_symm_val D18 18 rfl rfl k
  have el : D18.lhsIdx (ix2 p q) ((contrEquiv1 D18 18 rfl rfl).symm k) = ix2 p k := funext fun a => Fin.ext (by
    match a with
    | ⟨0, _⟩ => exact lhs_row _ _
    | ⟨1, _⟩ => exact (lhs_col _ _).trans hk)
  have er : D18.rhsIdx (ix2 p q) ((contrEquiv1 D18 18 rfl rfl).symm k) = ix2 q k := funext fun a => Fin.ext (by
    match a with
    | ⟨0, _⟩ => exact rhs_row _ _
    | ⟨1, _⟩ => exact (rhs_col _ _).trans hk)
  rw [el, er]

/-- The payload is the clamp, reciprocal square root, product and negation of that contraction. -/
theorem pay_eq (v0 : FVec Ideal S1024x16 .f32) (v1 : FVec Ideal S4096x16 .f32) :
    k0_pay1 (F := Ideal) v0 v1
      = subf (broadcast S1024x4096 (Scalar.ofBits (F := Ideal) .f32 0x00000000#32))
          (mulf (maximumf (matmul D18 none (lhs18 v0) (rhs18 v1) (constant S1024x4096 .f32 0x00000000#32))
                  (broadcast S1024x4096 (Scalar.ofBits (F := Ideal) .f32 0x2B8CBCCC#32)))
            (rsqrt (maximumf (matmul D18 none (lhs18 v0) (rhs18 v1) (constant S1024x4096 .f32 0x00000000#32))
                  (broadcast S1024x4096 (Scalar.ofBits (F := Ideal) .f32 0x2B8CBCCC#32))))) := rfl

/-- THE PAYLOAD AT AN INDEX. -/
theorem pay_apply (v0 : FVec Ideal S1024x16 .f32) (v1 : FVec Ideal S4096x16 .f32) (p : Fin 1024) (q : Fin 4096) :
    k0_pay1 (F := Ideal) v0 v1 (ix2 p q) = kerEntry (fun j => v0 (ix2 p j)) (fun j => v1 (ix2 q j)) := by
  rw [pay_eq]
  have hS : matmul D18 none (lhs18 v0) (rhs18 v1) (constant S1024x4096 .f32 0x00000000#32) (ix2 p q)
      = ∑ k : Fin 18, xAug (fun j => v0 (ix2 p j)) k * pAug (fun j => v1 (ix2 q j)) k := by
    rw [dot18_apply]
    exact Finset.sum_congr rfl fun k _ => by rw [lhs18_apply, rhs18_apply]
  show Ideal.ofBits .f32 0x00000000#32
      - (max (matmul D18 none (lhs18 v0) (rhs18 v1) (constant S1024x4096 .f32 0x00000000#32) (ix2 p q)) (Ideal.ofBits .f32 0x2B8CBCCC#32)
          * Ideal.rsqrt (max (matmul D18 none (lhs18 v0) (rhs18 v1) (constant S1024x4096 .f32 0x00000000#32) (ix2 p q)) (Ideal.ofBits .f32 0x2B8CBCCC#32)))
    = _
  rw [hS]
  rfl

end Cert.KernelIdeal.Payload

end
-- ==== Proof.RunIdeal.lean ====
/-
  The idealized kernel's run, with the result array named: after the run the result array holds, at (b, j), the
  kernel's entry formula of row `b` of the batch and row `j` of the prototypes.

  Point `t` of the 25 writes columns 4096·t … of the result: all 4096 of them for t < 24, the first 1696 at the last
  point, where the block reaches past column 100000.  Column `q` of the block at point `t` depends only on row `q`
  of the prototype block, which for a column inside the array is row 4096·t + q of the prototype array — the rows
  of the prototype buffer past the array's end, whose contents nothing names, feed only the columns that are never
  written back.  Every column j of the result lies in the block of point j / 4096.
-/
import proofs.«101006_g41042707480709_retrytranche2_1909_5_alg».proof.Proof.BodyIdeal
import proofs.«101006_g41042707480709_retrytranche2_1909_5_alg».proof.Proof.Payload

set_option maxRecDepth 16384

noncomputable section

namespace Cert.KernelIdeal.ValueRun

open Cert.KernelIdeal Cert.KernelIdeal.Gen Cert.KernelIdeal.Body Cert.KernelIdeal.Payload Cert.Lvq
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The kernel's result as one function of the two argument arrays. -/
def G (x : S1024x16.Idx → EReal) (p : S100000x16.Idx → EReal) : S1024x100000.Idx → EReal :=
  fun i => kerEntry (fun k => x (ix2 (⟨(i 0).val, (i 0).isLt⟩ : Fin 1024) k)) (fun k => p (ix2 (⟨(i 1).val, (i 1).isLt⟩ : Fin 100000) k))

/-- That function of the arrays core `c` was launched with. -/
def Gm (c : Dev nD) : Buf (Elt Ideal) ((cfg0.win 2).arr.view.loc (c : Thread nD τ)) :=
  G (V m c main_arg0) (V m c main_arg1)

/-- The proof data: the arrays as the region finds them; after the body at point `t` the batch buffer holds the
    batch, the prototype buffer block `t` of the prototypes on the rows inside the array, the result's buffer
    block `t` of `G` on the columns inside the array (zeros, which nothing reads, elsewhere). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (Gm m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal)) ((win0_2.blk t).view.read (Elt Ideal) (Gm m c)) := by
  dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) :
    (dats m 0 c).before 1 t d = win0_1.fill (grid0.coords t) d (iblk m c 1 t) := by
  unfold Dat.before; rw [if_pos (fetch0_1 t)]; rfl

theorem cut_after0_1 (c : Dev nD) (t : Fin cfg0.N) :
    (cfg0.win 1).cut (cfg0.grid.coords t) ((dats m 0 c).after 1 t) = iblk m c 1 t := by
  rw [after0_1]; exact win0_1.cut_fill _ _ _

/-- What point `t` writes back is block `t` of `G`. -/
theorem cut_after0_2 (c : Dev nD) (t : Fin cfg0.N) :
    (cfg0.win 2).cut (cfg0.grid.coords t) ((dats m 0 c).after 2 t) = (win0_2.blk t).view.read (Elt Ideal) (Gm m c) := by
  rw [after0_2]; exact win0_2.cut_fill _ _ _

/-! ## Where the blocks sit -/

/-- The block indices and the blocks' extents inside the arrays, at every point: the batch block is the whole
    batch; the prototype block starts at row 4096·t and has min 4096 (100000 − 4096·t) rows inside the array; the
    result block starts at column 4096·t and has as many columns inside the array. -/
theorem where_blocks : ∀ t : Fin cfg0.N,
    win0_0.index t 0 = 0 ∧ win0_0.index t 1 = 0 ∧ win0_1.index t 0 = t.val ∧ win0_1.index t 1 = 0
    ∧ win0_2.index t 0 = 0 ∧ win0_2.index t 1 = t.val
    ∧ win0_1.xsize (grid0.coords t) 0 = min 4096 (100000 - 4096 * t.val) ∧ win0_1.xsize (grid0.coords t) 1 = 16
    ∧ win0_2.xsize (grid0.coords t) 0 = 1024 ∧ win0_2.xsize (grid0.coords t) 1 = min 4096 (100000 - 4096 * t.val) :=
  (by decide +kernel : ∀ t : Fin grid0.N,
    win0_0.index t 0 = 0 ∧ win0_0.index t 1 = 0 ∧ win0_1.index t 0 = t.val ∧ win0_1.index t 1 = 0
    ∧ win0_2.index t 0 = 0 ∧ win0_2.index t 1 = t.val
    ∧ win0_1.xsize (grid0.coords t) 0 = min 4096 (100000 - 4096 * t.val) ∧ win0_1.xsize (grid0.coords t) 1 = 16
    ∧ win0_2.xsize (grid0.coords t) 0 = 1024 ∧ win0_2.xsize (grid0.coords t) 1 = min 4096 (100000 - 4096 * t.val))

/-! ## What the body computes on the columns inside the array -/

/-- On the columns the write-back moves, the body's result — computed from the batch buffer and from a prototype
    buffer that holds block `t` on the rows inside the array and ANY words `d1` past them — is block `t` of `G`. -/
theorem cut_out (c : Dev nD) (t : Fin cfg0.N) (d1 : S4096x16.Idx → EReal) :
    win0_2.cut (grid0.coords t) (out (F := Ideal) (iblk m c 0 t) (win0_1.fill (grid0.coords t) d1 (iblk m c 1 t)))
      = (win0_2.blk t).view.read (Elt Ideal) (Gm m c) := by
  obtain ⟨i00, i01, i10, i11, i20, i21, x10, x11, x20, x21⟩ := where_blocks t
  have hz : (![0, 0] : Fin 2 → Nat) = fun _ => 0 := funext fun a => by fin_cases a <;> rfl
  funext j
  have hj0 : (j 0).val < 1024 := x20 ▸ (j 0).isLt
  have hj1 : (j 1).val < min 4096 (100000 - 4096 * t.val) := x21 ▸ (j 1).isLt
  have hj1' : (j 1).val < 4096 := by omega
  have e : win0_2.xinj (grid0.coords t) j = ix2 (⟨(j 0).val, hj0⟩ : Fin 1024) (⟨(j 1).val, hj1'⟩ : Fin 4096) :=
    funext fun a => Fin.ext (by match a with | ⟨0, _⟩ => rfl | ⟨1, _⟩ => rfl)
  show out (F := Ideal) (iblk m c 0 t) (win0_1.fill (grid0.coords t) d1 (iblk m c 1 t)) (win0_2.xinj (grid0.coords t) j)
      = Gm m c ((win0_2.blk t).view.emb j)
  unfold out
  rw [View.canon_unit_zero hz]
  simp only [View.ld_unit_zero (S := S1024x16) hz, View.ld_unit_zero (S := S4096x16) hz]
  rw [e, pay_apply]
  unfold Gm G
  congr 1
  · funext k
    show V m c main_arg0 (((cfg0.win 0).blk t).view.emb (ix2 (⟨(j 0).val, hj0⟩ : Fin 1024) k)) = V m c main_arg0 _
    refine congrArg (V m c main_arg0) (funext fun a => Fin.ext ?_)
    match a with
    | ⟨0, _⟩ =>
      show win0_0.index t 0 * 1024 + 1 * (j 0).val = win0_2.index t 0 * 1024 + 1 * (j 0).val
      rw [i00, i20]
    | ⟨1, _⟩ =>
      show win0_0.index t 1 * 16 + 1 * k.val = k.val
      rw [i01]; omega
  · funext k
    have hmv : win0_1.moved (grid0.coords t) (ix2 (⟨(j 1).val, hj1'⟩ : Fin 4096) k) = true :=
      (win0_1.moved_iff _ _).mpr fun a => by
        match a with
        | ⟨0, _⟩ => show (j 1).val < win0_1.xsize (grid0.coords t) 0; rw [x10]; exact hj1
        | ⟨1, _⟩ => show k.val < win0_1.xsize (grid0.coords t) 1; rw [x11]; exact k.isLt
    unfold Window.fill
    rw [dif_pos hmv]
    show V m c main_arg1 (((cfg0.win 1).blk t).view.emb _) = V m c main_arg1 _
    refine congrArg (V m c main_arg1) (funext fun a => Fin.ext ?_)
    match a with
    | ⟨0, _⟩ =>
      show win0_1.index t 0 * 4096 + 1 * (j 1).val = win0_2.index t 1 * 4096 + 1 * (j 1).val
      rw [i10, i21]
    | ⟨1, _⟩ =>
      show win0_1.index t 1 * 16 + 1 * k.val = k.val
      rw [i11]; omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, cut_after0_1, cut_after0_2]
  iintro ⟨HΦ, Ho, ⟨%d0, H0⟩, ⟨%d1, H1⟩, ⟨%d2, H2⟩⟩
  have hfill : win0_2.fill (grid0.coords t)
        (out (F := Ideal) (iblk m c 0 t) (win0_1.fill (grid0.coords t) d1 (iblk m c 1 t)))
        ((win0_2.blk t).view.read (Elt Ideal) (Gm m c))
      = out (F := Ideal) (iblk m c 0 t) (win0_1.fill (grid0.coords t) d1 (iblk m c 1 t)) := by
    rw [← cut_out m c t d1]; exact win0_2.fill_cut _ _
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; iexact H1
  · iexists (out (F := Ideal) (iblk m c 0 t) (win0_1.fill (grid0.coords t) d1 (iblk m c 1 t)))
    change _ ⊢ owns (c : Thread nD τ) (st0_2 t) fullShare (win0_2.fill (grid0.coords t)
        (out (F := Ideal) (iblk m c 0 t) (win0_1.fill (grid0.coords t) d1 (iblk m c 1 t)))
        ((win0_2.blk t).view.read (Elt Ideal) (Gm m c)))
    rw [hfill]

theorem body_obligation (c : Dev nD) :
    BodyObligationLoose (dats m 0 c) (defs₀ (F := Ideal)) Variants.none () Set.univ := fun t => by
  rw [bigSep_W0, bigSep_W0]
  exact sound_body m c t

/-! ## The run, the frame, the result -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: both argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- Every entry of the result lies in the block of the point its column divided by 4096 names. -/
theorem cover (c : Dev nD) (i : ((cfg0.win 2).arr.view.loc (c : Thread nD τ)).2.ty.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  have ht : (i 1).val / 4096 < cfg0.N := by show (i 1).val / 4096 < 25; omega
  refine ⟨⟨(i 1).val / 4096, ht⟩, flush0_2 _, ?_⟩
  obtain ⟨i00, i01, i10, i11, i20, i21, x10, x11, x20, x21⟩ := where_blocks ⟨(i 1).val / 4096, ht⟩
  show i ∈ ((View.whole main_v0).slice (win0_2.rect ⟨(i 1).val / 4096, ht⟩)).set
  rw [View.set_slice_whole, Rect.mem_set_unit]
  intro a
  match a with
  | ⟨0, _⟩ =>
    show win0_2.index ⟨(i 1).val / 4096, ht⟩ 0 * 1024 ≤ (i 0).val
      ∧ (i 0).val < win0_2.index ⟨(i 1).val / 4096, ht⟩ 0 * 1024 + win0_2.xsize (grid0.coords ⟨(i 1).val / 4096, ht⟩) 0
    rw [i20, x20]; omega
  | ⟨1, _⟩ =>
    show win0_2.index ⟨(i 1).val / 4096, ht⟩ 1 * 4096 ≤ (i 1).val
      ∧ (i 1).val < win0_2.index ⟨(i 1).val / 4096, ht⟩ 1 * 4096 + win0_2.xsize (grid0.coords ⟨(i 1).val / 4096, ht⟩) 1
    rw [i21, x21]
    show (i 1).val / 4096 * 4096 ≤ (i 1).val ∧ (i 1).val < (i 1).val / 4096 * 4096 + min 4096 (100000 - 4096 * ((i 1).val / 4096))
    omega

/-- THE RESULT ARRAY after the run is `G` of the argument arrays. -/
theorem final (c : Dev nD) : (dats m 0 c).arrAt 2 cfg0.N = Gm m c :=
  (dats m 0 c).arrAt_eq_of_cover 2 (Gm m c) (fun t _ => cut_after0_2 m c t) (cover c)

/-- The run with the result named and the arguments unchanged. -/
theorem run_value : θ_run defs (onTc (τ := τ) (main (F := Ideal))) ⟨m, fun _ => 0, ρ⟩ (fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.ValueRun

end
-- ==== Proof.RefValue.lean ====
/-
  The reference program's result, read entry by entry at the ideal instance: at (b, j) it is the reference's
  entry formula of row `b` of the batch and row `j` of the prototypes.

  Stage by stage: the two sums of squares, each laid out along its own axis and added; the product of the batch
  with the transposed prototypes, doubled and subtracted; the clamp; the square root; the negation; and last a
  maximum, starting from −∞, over an axis of extent one — which returns its one element.
-/
import proofs.«101006_g41042707480709_retrytranche2_1909_5_alg».proof.Proof.Gen.ReferenceIdeal.Read
import proofs.«101006_g41042707480709_retrytranche2_1909_5_alg».proof.Proof.Dist
import proofs.«101006_g41042707480709_retrytranche2_1909_5_alg».proof.Proof.LibRowReduce

set_option maxRecDepth 16384

noncomputable section

namespace Cert.ReferenceIdeal.RefValue

open Cert.ReferenceIdeal Cert.ReferenceIdeal.Gen Cert.ReferenceIdeal.Read Cert.Lvq
open Idealize.ShloMosaic Idealize.ShloMosaic.ValueIdx

/-- A maximum from −∞ over the one element of a unit axis is that element. -/
theorem last_stage (x : (⟨S1024x16, .f32⟩ : BufTy).Contents (Elt Ideal)) (p : (⟨S100000x16, .f32⟩ : BufTy).Contents (Elt Ideal))
    (b : Fin 1024) (j : Fin 100000) :
    val_main_v20 (F := Ideal) x p (ix2 b j) = val_main_v18 (F := Ideal) x p (ix2 b j) := by
  unfold val_main_v20
  have hR : S1024x100000x1.Reduces [2] S1024x100000 := by decide
  rw [Host.reduce_eq_fold_single FloatOps.maximumf _ _ reducesTo_S1024x100000x1_S1024x100000_d2 hR h_S_ (ix2 b j)]
  change (Finset.univ : Finset (Fin 1)).fold (max : EReal → EReal → EReal) (Ideal.ofBits .f32 0xFF800000#32)
      (fun k : Fin 1 => val_main_v19 (F := Ideal) x p (hR.lift (ix2 b j) k)) = _
  rw [Finset.univ_unique, Finset.fold_singleton, Cert.LibRowReduce.ofBits_neg_inf_f32, max_bot_right, val_main_v19_apply]
  refine congrArg (val_main_v18 (F := Ideal) x p) (funext fun a => Fin.ext ?_)
  match a with
  | ⟨0, _⟩ =>
    show ((b.val * 100000 + j.val) * 1 + 0) / 100000 = b.val
    have := j.isLt; omega
  | ⟨1, _⟩ =>
    show ((b.val * 100000 + j.val) * 1 + 0) % 100000 = j.val
    have := j.isLt; omega

/-- THE REFERENCE AT AN INDEX. -/
theorem ref_apply (x : (⟨S1024x16, .f32⟩ : BufTy).Contents (Elt Ideal)) (p : (⟨S100000x16, .f32⟩ : BufTy).Contents (Elt Ideal))
    (b : Fin 1024) (j : Fin 100000) :
    val_main_v20 (F := Ideal) x p (ix2 b j) = refEntry (fun k => x (ix2 b k)) (fun k => p (ix2 j k)) := by
  have e1 : ∀ k : Fin 16, idx_main_v1 (idx_main_v2 (idx_main_v6 (ix2 b j))) k = ix2 b k := fun k =>
    funext fun a => Fin.ext (by match a with | ⟨0, _⟩ => rfl | ⟨1, _⟩ => rfl)
  have e4 : ∀ k : Fin 16, idx_main_v4 (idx_main_v5 (idx_main_v7 (ix2 b j))) k = ix2 j k := fun k =>
    funext fun a => Fin.ext (by match a with | ⟨0, _⟩ => rfl | ⟨1, _⟩ => rfl)
  have el : ∀ k : Fin 16, lidx_main_v10 (ix2 b j) k = ix2 b k := fun k =>
    funext fun a => Fin.ext (by match a with | ⟨0, _⟩ => rfl | ⟨1, _⟩ => rfl)
  have er : ∀ k : Fin 16, idx_main_v9 (ridx_main_v10 (ix2 b j) k) = ix2 j k := fun k =>
    funext fun a => Fin.ext (by match a with | ⟨0, _⟩ => rfl | ⟨1, _⟩ => rfl)
  rw [last_stage, val_main_v18_apply, val_main_v16_apply, val_main_v15_apply, val_main_v13_apply, val_main_v8_apply,
    val_main_v6_apply, val_main_v2_apply, val_main_v1_apply, val_main_v7_apply, val_main_v5_apply, val_main_v4_apply,
    val_main_v12_apply, val_main_v11_apply, val_main_v10_apply, val_main_v14_apply]
  simp only [val_main_v0_apply, val_main_v3_apply, val_main_v9_apply, val_main_cst_apply, val_main_cst_0_apply,
    val_main_cst_1_apply, val_main_cst_2_apply, e1, e4, el, er,
    Ideal.hostNegf_def, Ideal.negf_def, Ideal.hostUnary_sqrt_def, Ideal.maximumf_def, Ideal.subf_def, Ideal.addf_def,
    Ideal.mulf_def, Ideal.ofBits_def]
  rfl

end Cert.ReferenceIdeal.RefValue

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.lean ====
/-
  The certificate: the word-level kernel, the idealized kernel and the idealized reference each run to the end
  without a fault and leave the two argument arrays unchanged; the idealization rewrote nothing; and on finite
  inputs the idealized kernel and the idealized reference end with the same result array.

  The result is −cdist(x, prototypes).  The reference computes each entry as
  −√max(|x_b|² + |p_j|² − 2·x_b·p_j, ε); the kernel computes the squared distance as ONE product of two rows of
  eighteen numbers, (−2x_b, |x_b|², 1)·(p_j, 1, |p_j|²), and the root as M·(1/√M).  On real numbers these are the
  same function (`Cert.Lvq.kerEntry_eq_refEntry`): distributing −2 over the sum needs the entries to be real, which
  is what the precondition gives; the clamp makes M a positive real, where M/√M = √M.
-/
import proofs.«101006_g41042707480709_retrytranche2_1909_5_alg».proof.Defs
import proofs.«101006_g41042707480709_retrytranche2_1909_5_alg».proof.Proof.Gen.Kernel
import proofs.«101006_g41042707480709_retrytranche2_1909_5_alg».proof.Proof.Gen.KernelIdeal
import proofs.«101006_g41042707480709_retrytranche2_1909_5_alg».proof.Proof.Gen.ReferenceIdeal
import proofs.«101006_g41042707480709_retrytranche2_1909_5_alg».proof.Proof.Gen.Pre_finite_inputs
import proofs.«101006_g41042707480709_retrytranche2_1909_5_alg».proof.Proof.Gen.ReferenceIdeal.Run
import proofs.«101006_g41042707480709_retrytranche2_1909_5_alg».proof.Proof.FrameBits
import proofs.«101006_g41042707480709_retrytranche2_1909_5_alg».proof.Proof.RunIdeal
import proofs.«101006_g41042707480709_retrytranche2_1909_5_alg».proof.Proof.RefValue
import proofs.«101006_g41042707480709_retrytranche2_1909_5_alg».proof.Proof.LibFiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- Under the precondition every entry of both inputs is a real number. -/
theorem real_of_pre (x : FVec Ideal Cert.Pre_finite_inputs.S1024x16 .f32) (p : FVec Ideal Cert.Pre_finite_inputs.S100000x16 .f32)
    (h : Cert.Pre_finite_inputs.fn (F := Ideal) x p = fun _ => 1#1) :
    (∀ i, ∃ r : ℝ, (x i : EReal) = (r : EReal)) ∧ (∀ i, ∃ r : ℝ, (p i : EReal) = (r : EReal)) := by
  have h0 := congrFun h ValueIdx.ix0
  have h1 : IntOp.andi _ _ = 1#1 := h0
  obtain ⟨ex, ep⟩ := IntOp.andi_eq_one.mp h1
  exact ⟨Cert.LibFiniteInputs.all_real x Cert.Pre_finite_inputs.Facts.bcast_S_S1024x16
      Cert.Pre_finite_inputs.Facts.reducesTo_S1024x16_S_d0_1 Cert.Pre_finite_inputs.Facts.h_S_ ex,
    Cert.LibFiniteInputs.all_real p Cert.Pre_finite_inputs.Facts.bcast_S_S100000x16
      Cert.Pre_finite_inputs.Facts.reducesTo_S100000x16_S_d0_1 Cert.Pre_finite_inputs.Facts.h_S_ ep⟩

theorem frame_k : Cert.frame_Kernel := fun m ρ _ => Cert.Kernel.FrameRun.frame (F := Bits) m ρ

theorem frame_ki : Cert.frame_KernelIdeal := fun m ρ _ => Cert.KernelIdeal.ValueRun.frame m ρ

theorem frame_ri : Cert.frame_ReferenceIdeal := fun m ρ _ =>
  (θ_run Cert.ReferenceIdeal.defs _ _).mono (fun _ h c => (h c).2) (Cert.ReferenceIdeal.Value.run (F := Ideal) m ρ)

/-- On real inputs the kernel's whole-array function is the reference's last stage. -/
theorem G_eq_ref (x : FVec Ideal Cert.KernelIdeal.S1024x16 .f32) (p : FVec Ideal Cert.KernelIdeal.S100000x16 .f32)
    (hx : ∀ i, ∃ r : ℝ, (x i : EReal) = (r : EReal)) (hp : ∀ i, ∃ r : ℝ, (p i : EReal) = (r : EReal)) :
    Cert.ReferenceIdeal.Read.val_main_v20 (F := Ideal) x p = Cert.KernelIdeal.ValueRun.G x p := by
  funext i
  obtain ⟨b, j, rfl⟩ : ∃ (b : Fin 1024) (j : Fin 100000), i = ix2 b j := ⟨i 0, i 1, eq_ix2 i⟩
  rw [Cert.ReferenceIdeal.RefValue.ref_apply]
  unfold Cert.KernelIdeal.ValueRun.G
  exact (Cert.Lvq.kerEntry_eq_refEntry _ _ (fun k => hx _) (fun k => hp _)).symm

theorem algebraic : Cert.algebraic_KernelIdeal_ReferenceIdeal := by
  intro m ρ m' ρ' hpre hagree
  refine ⟨fun c => Cert.KernelIdeal.ValueRun.Gm m c, Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hp⟩ := real_of_pre _ _ (hpre c)
  rw [Cert.ReferenceIdeal.Read.val_main_v20_eq, (hagree c).1, (hagree c).2]
  exact G_eq_ref _ _ hx hp

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
